-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S2x8x64x512 : Shape := ⟨4, ![2, 8, 64, 512]⟩
abbrev S2x8x512x512 : Shape := ⟨4, ![2, 8, 512, 512]⟩
abbrev S1x8x64x512 : Shape := ⟨4, ![1, 8, 64, 512]⟩
abbrev S1x8x64x128 : Shape := ⟨4, ![1, 8, 64, 128]⟩
abbrev S1x8x128x512 : Shape := ⟨4, ![1, 8, 128, 512]⟩
abbrev S8x128x512 : Shape := ⟨3, ![8, 128, 512]⟩
abbrev S1x8x1x128 : Shape := ⟨4, ![1, 8, 1, 128]⟩
abbrev S8x1x128 : Shape := ⟨3, ![8, 1, 128]⟩
abbrev S8x128 : Shape := ⟨2, ![8, 128]⟩
abbrev S1x8x1x512 : Shape := ⟨4, ![1, 8, 1, 512]⟩
abbrev S8x1x512 : Shape := ⟨3, ![8, 1, 512]⟩
abbrev S8x512 : Shape := ⟨2, ![8, 512]⟩
abbrev S8x128x1 : Shape := ⟨3, ![8, 128, 1]⟩
abbrev S2x512x512x8 : Shape := ⟨4, ![2, 512, 512, 8]⟩

abbrev nBuf : Space → Nat
  | .hbm => 6
  | .vmem => 7
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x8x64x512, .f32⟩
  | .hbm, ⟨3, _⟩ => ⟨S2x8x64x512, .f32⟩
  | .hbm, ⟨4, _⟩ => ⟨S2x8x512x512, .f32⟩
  | .hbm, ⟨5, _⟩ => ⟨S2x512x512x8, .f32⟩
  | .local _ .vmem, ⟨0, _⟩ => ⟨S1x8x64x512, .f32⟩
  | .local _ .vmem, ⟨1, _⟩ => ⟨S1x8x64x512, .f32⟩
  | .local _ .vmem, ⟨2, _⟩ => ⟨S1x8x64x128, .f32⟩
  | .local _ .vmem, ⟨3, _⟩ => ⟨S1x8x64x128, .f32⟩
  | .local _ .vmem, ⟨4, _⟩ => ⟨S1x8x128x512, .f32⟩
  | .local _ .vmem, ⟨5, _⟩ => ⟨S1x8x128x512, .f32⟩
  | .local _ .vmem, ⟨6, _⟩ => ⟨S8x128x512, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_off1 (k0_t1 : Fin k0_t1_loop.trips) : Fin 4 → Nat :=
  let c0_11 : Index := 0#32
  let c0_12 : Index := 0#32
  let c0_i32 : BitVec 32 := 0#32
  let c1_i32 : BitVec 32 := 1#32
  let arg6 : BitVec 32 := Scf.iv c0_i32 c1_i32 k0_t1
  let v11 : Index := Scalar.indexCast arg6
  let c0_13 : Index := 0#32
  ![0, 0, v11.toNat, 0]
def k0_off2 (k0_t1 : Fin k0_t1_loop.trips) : Fin 4 → Nat :=
  let c0_14 : Index := 0#32
  let c0_15 : Index := 0#32
  let c0_i32 : BitVec 32 := 0#32
  let c1_i32 : BitVec 32 := 1#32
  let arg6 : BitVec 32 := Scf.iv c0_i32 c1_i32 k0_t1
  let v15 : Index := Scalar.indexCast arg6
  let c0_16 : Index := 0#32
  ![0, 0, v15.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2x512x8x64_S2x8x64x512_0_2_3_1 : S2x512x8x64.Transposes [0, 2, 3, 1] S2x8x64x512
  inb_S8x128x512_S8x128x512_0_0_0 : ∀ a, (![0, 0, 0] : Fin 3 → Nat) a + S8x128x512.size a ≤ S8x128x512.size a
  h_S8x128x512 : 0 < S8x128x512.numel
  shapeCasts_S8x128x512_S8x128x512 : S8x128x512.ShapeCasts S8x128x512
  h_S1x8x1x128 : 0 < S1x8x1x128.numel
  shapeCasts_S1x8x1x128_S8x1x128 : S1x8x1x128.ShapeCasts S8x1x128
  shapeCasts_S8x1x128_S8x128 : S8x1x128.ShapeCasts S8x128
  h_S1x8x1x512 : 0 < S1x8x1x512.numel
  shapeCasts_S1x8x1x512_S8x1x512 : S1x8x1x512.ShapeCasts S8x1x512
  shapeCasts_S8x1x512_S8x512 : S8x1x512.ShapeCasts S8x512
  shapeCasts_S8x128_S8x128x1 : S8x128.ShapeCasts S8x128x1
  shapeCasts_S8x512_S8x1x512 : S8x512.ShapeCasts S8x1x512
  broadcasts_S8x128x1_S8x128x512 : S8x128x1.Broadcasts S8x128x512
  broadcasts_S8x1x512_S8x128x512 : S8x1x512.Broadcasts S8x128x512
  inb_S1x8x128x512_S1x8x128x512_0_0_0_0 : ∀ a, (![0, 0, 0, 0] : Fin 4 → Nat) a + S1x8x128x512.size a ≤ S1x8x128x512.size a
  h_S1x8x128x512 : 0 < S1x8x128x512.numel
  shapeCasts_S1x8x128x512_S8x128x512 : S1x8x128x512.ShapeCasts S8x128x512
  shapeCasts_S8x128x512_S1x8x128x512 : S8x128x512.ShapeCasts S1x8x128x512
  transposes_S2x8x512x512_S2x512x512x8_0_2_3_1 : S2x8x512x512.Transposes [0, 2, 3, 1] S2x512x512x8
  hrank0 : 0 < grid0.rank
  k0_t1_ok : k0_t1_loop.OK
  k0_off1_inb : ∀ k0_t1 : Fin k0_t1_loop.trips, ∀ a, (k0_off1 k0_t1) a + S1x8x1x128.size a ≤ S1x8x64x128.size a
  k0_off2_inb : ∀ k0_t1 : Fin k0_t1_loop.trips, ∀ a, (k0_off2 k0_t1) a + S1x8x1x512.size a ≤ S1x8x64x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x64x512.size a ≤ S2x8x64x512.size a
  hwx0_0 : ∀ i : grid0.Coords, EltTy.bits .f32 = 32 ∨ (Rect.block (s := S2x8x64x512) S1x8x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x64x128.size a ≤ S2x8x64x512.size a
  hwx0_1 : ∀ i : grid0.Coords, EltTy.bits .f32 = 32 ∨ (Rect.block (s := S2x8x64x512) S1x8x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128x512.size a ≤ S2x8x512x512.size a
  hwx0_2 : ∀ i : grid0.Coords, EltTy.bits .f32 = 32 ∨ (Rect.block (s := S2x8x512x512) S1x8x128x512.size (cc0_transform_2 i) (hinb0_2 i)).WholeWords (EltTy.packing .f32)

variable [Facts₀]

abbrev win0_0 : Pipeline.Window sig grid0 :=
  Pipeline.Window.ofSpec (Memref.whole main_v0) S1x8x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x512x8x64 : Shape := ⟨4, ![2, 512, 8, 64]⟩
abbrev S2x1x512x8x64 : Shape := ⟨5, ![2, 1, 512, 8, 64]⟩
abbrev S2x512x1x8x64 : Shape := ⟨5, ![2, 512, 1, 8, 64]⟩
abbrev S2x512x512x8x64 : Shape := ⟨5, ![2, 512, 512, 8, 64]⟩
abbrev S_ : Shape := ⟨0, ![]⟩
abbrev S2x512x512x8 : Shape := ⟨4, ![2, 512, 512, 8]⟩

abbrev nBuf : Space → Nat
  | .hbm => 13
  | .vmem => 0
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x1x512x8x64, .f32⟩
  | .hbm, ⟨3, _⟩ => ⟨S2x512x1x8x64, .f32⟩
  | .hbm, ⟨4, _⟩ => ⟨S2x512x512x8x64, .f32⟩
  | .hbm, ⟨5, _⟩ => ⟨S2x512x512x8x64, .f32⟩
  | .hbm, ⟨6, _⟩ => ⟨S2x512x512x8x64, .f32⟩
  | .hbm, ⟨7, _⟩ => ⟨S2x512x512x8x64, .f32⟩
  | .hbm, ⟨8, _⟩ => ⟨S_, .f32⟩
  | .hbm, ⟨9, _⟩ => ⟨S2x512x512x8, .f32⟩
  | .hbm, ⟨10, _⟩ => ⟨S_, .f32⟩
  | .hbm, ⟨11, _⟩ => ⟨S2x512x512x8, .f32⟩
  | .hbm, ⟨12, _⟩ => ⟨S2x512x512x8, .f32⟩
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S2x512x8x64_S2x1x512x8x64_0_2_3_4 : S2x512x8x64.BroadcastsInDim S2x1x512x8x64 (![0, 2, 3, 4] : Fin 4 → Fin S2x1x512x8x64.rank)
  bcast_S2x512x8x64_S2x512x1x8x64_0_1_3_4 : S2x512x8x64.BroadcastsInDim S2x512x1x8x64 (![0, 1, 3, 4] : Fin 4 → Fin S2x512x1x8x64.rank)
  bcast_S2x1x512x8x64_S2x512x512x8x64_0_1_2_3_4 : S2x1x512x8x64.BroadcastsInDim S2x512x512x8x64 (![0, 1, 2, 3, 4] : Fin 5 → Fin S2x512x512x8x64.rank)
  bcast_S2x512x1x8x64_S2x512x512x8x64_0_1_2_3_4 : S2x512x1x8x64.BroadcastsInDim S2x512x512x8x64 (![0, 1, 2, 3, 4] : Fin 5 → Fin S2x512x512x8x64.rank)
  reducesTo_S2x512x512x8x64_S2x512x512x8_d4 : S2x512x512x8x64.ReducesTo [4] S2x512x512x8
  h_S_ : 0 < S_.numel
  bcast_S_S2x512x512x8 : S_.BroadcastsInDim S2x512x512x8 (![] : Fin 0 → Fin S2x512x512x8.rank)

variable [Facts₀]

class Facts : Prop extends Facts₀ where

variable [Facts]
-- ==== Proof.Trip.lean ====
/-
  What one grid point's body leaves in its output block, as the composition of the body's three payloads.
  The body fills its accumulator with zeros, then 64 times loads one row (fixed w) of the k block and of the q
  block, loads the accumulator, and stores the updated accumulator over the whole buffer; at the end it loads the
  accumulator and stores its scaled copy over the whole output block. Every store here covers its whole buffer, so
  what a buffer reads after a store is that store's payload, whatever it held before. Hence, by induction on the
  number of trips made, the accumulator reads the n-fold composition of the update applied to the zero fill, and
  the output block is the last payload of the accumulator after all trips.
-/
import proofs.«126552_j79611513798903_2_alg».proof.Proof.Gen.KernelIdeal.Frame
import Idealize.ShloMosaic.Lib.Pipeline.Value

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A store over the whole accumulator leaves its payload there, whatever the accumulator held. -/
theorem read_store_whole (v : View sig .tc .vmem S8x128x512 .f32) (f : v.ty.Contents (Elt F)) (w : S8x128x512.Idx → Elt F .f32) :
    v.read (Elt F) (v.writes (Elt F) f [⟨Rect.unit ![0, 0, 0] S8x128x512.size inb_S8x128x512_S8x128x512_0_0_0, w⟩]) = w := by
  rw [View.read_writes_eq_canon _ _ _ (fun y => ⟨_, List.mem_singleton_self _, View.mem_set_unit_zero hz3 inb_S8x128x512_S8x128x512_0_0_0 y⟩),
    View.canon_unit_zero hz3]

/-- Trip k's one store: over the whole accumulator, the update of what the trip loads — row k of the k block, row k
    of the q block, and the accumulator as the trip finds it. -/
theorem trip_piece (𝒱 : Variants) (bd : Option 𝒱.V) (c : Dev nD) (i : grid0.Coords) (arg2 : Memref sig .tc .vmem S1x8x64x512 .f32) (harg2 : arg2.IsWhole) (arg3 : Memref sig .tc .vmem S1x8x64x128 .f32) (harg3 : arg3.IsWhole) (arg4 : Memref sig .tc .vmem S1x8x128x512 .f32) (harg4 : arg4.IsWhole) (arg5 : Memref sig .tc .vmem S8x128x512 .f32) (harg5 : arg5.IsWhole)
    (X_arg2 : BufTy.Contents (Elt F) arg2.view.ty) (X_arg3 : BufTy.Contents (Elt F) arg3.view.ty) (k : Fin k0_t1_loop.trips)
    (f : BufTy.Contents (Elt F) arg5.view.ty) :
    tripL_k0_t1 (F := F) 𝒱 c bd i arg2 harg2 arg3 harg3 arg4 harg4 arg5 harg5 X_arg2 X_arg3 k f
      = [⟨Rect.unit ![0, 0, 0] S8x128x512.size inb_S8x128x512_S8x128x512_0_0_0,
          k0_pay2 (View.readAt (Elt F) arg3.view (Rect.unit (s := S1x8x64x128) (k0_off1 k) S1x8x1x128.size (k0_off1_inb k)).toLoadRect X_arg3)
            (View.readAt (Elt F) arg2.view (Rect.unit (s := S1x8x64x512) (k0_off2 k) S1x8x1x512.size (k0_off2_inb k)).toLoadRect X_arg2)
            (View.readAt (Elt F) arg5.view (Rect.unit ![0, 0, 0] S8x128x512.size inb_S8x128x512_S8x128x512_0_0_0).toLoadRect f)⟩] := by
  unfold tripL_k0_t1 trip_k0_t1
  rfl

/-- The accumulator after the first n trips: the zero fill, then each trip's update of the two rows it loads. -/
def accAfter (x0 : Vec F S1x8x64x512 .f32) (x1 : Vec F S1x8x64x128 .f32) : ℕ → Vec F S8x128x512 .f32
  | 0 => k0_pay1
  | n + 1 =>
    if h : n < k0_t1_loop.trips then
      k0_pay2 (View.ld x1 (Rect.unit (s := S1x8x64x128) (k0_off1 ⟨n, h⟩) S1x8x1x128.size (k0_off1_inb ⟨n, h⟩)))
        (View.ld x0 (Rect.unit (s := S1x8x64x512) (k0_off2 ⟨n, h⟩) S1x8x1x512.size (k0_off2_inb ⟨n, h⟩))) (accAfter x0 x1 n)
    else accAfter x0 x1 n

/-- The accumulator, which held the zero fill when the loop was entered, reads `accAfter n` after the stores of the first n trips. -/
theorem acc_read (c : Dev nD) (i : grid0.Coords) (arg2 : Memref sig .tc .vmem S1x8x64x512 .f32) (harg2 : arg2.IsWhole) (arg3 : Memref sig .tc .vmem S1x8x64x128 .f32) (harg3 : arg3.IsWhole) (arg4 : Memref sig .tc .vmem S1x8x128x512 .f32) (harg4 : arg4.IsWhole) (arg5 : Memref sig .tc .vmem S8x128x512 .f32) (harg5 : arg5.IsWhole) (x0 : Vec F S1x8x64x512 .f32) (x1 : Vec F S1x8x64x128 .f32)
    (G0 : BufTy.Contents (Elt F) arg5.view.ty) (hG0 : arg5.view.read (Elt F) G0 = k0_pay1) :
    ∀ n, n ≤ k0_t1_loop.trips →
      arg5.view.read (Elt F) (arg5.view.writes (Elt F) G0
        (pb_k0_t1 (F := F) Variants.none c none i arg2 harg2 arg3 harg3 arg4 harg4 arg5 harg5 (harg2.unread x0) (harg3.unread x1) G0 n))
        = accAfter x0 x1 n
  | 0, _ => by rw [pb_k0_t1.eq_1, View.writes_nil, hG0]; rfl
  | n + 1, hn => by
    have hlt : n < k0_t1_loop.trips := hn
    have ih := acc_read c i arg2 harg2 arg3 harg3 arg4 harg4 arg5 harg5 x0 x1 G0 hG0 n (Nat.le_of_lt hlt)
    rw [pb_k0_t1_succ Variants.none c none i arg2 harg2 arg3 harg3 arg4 harg4 arg5 harg5 (harg2.unread x0) (harg3.unread x1) G0 ⟨n, hlt⟩,
      View.writes_append, trip_piece, read_store_whole]
    rw [accAfter, dif_pos hlt]
    simp only [View.readAt_eq_ld, harg2.read_unread, harg3.read_unread, View.ld_unit_zero (S := S8x128x512) hz3]
    rw [ih]

/-- What the body leaves in the output block: the scaling payload of the accumulator after all the trips. -/
theorem out_eq (c : Dev nD) (i : grid0.Coords) (arg2 : Memref sig .tc .vmem S1x8x64x512 .f32) (harg2 : arg2.IsWhole) (arg3 : Memref sig .tc .vmem S1x8x64x128 .f32) (harg3 : arg3.IsWhole) (arg4 : Memref sig .tc .vmem S1x8x128x512 .f32) (harg4 : arg4.IsWhole) (arg5 : Memref sig .tc .vmem S8x128x512 .f32) (harg5 : arg5.IsWhole) (x0 : Vec F S1x8x64x512 .f32) (x1 : Vec F S1x8x64x128 .f32) :
    out0_A_2 c i arg2 harg2 arg3 harg3 arg4 harg4 arg5 harg5 x0 x1 = k0_pay3 (accAfter x0 x1 k0_t1_loop.trips) := by
  unfold out0_A_2
  rw [View.read_writes_eq_canon _ _ _ (cover0_A_2 c i arg2 harg2 arg3 harg3 arg4 harg4 arg5 harg5 x0 x1)]
  unfold kernelRun0_A
  dsimp only
  sl_unfold_words
  rw [View.canon_unit_zero hz4]
  refine congrArg k0_pay3 ?_
  rw [View.readAt_eq_ld, View.ld_unit_zero (S := S8x128x512) hz3, View.writes_append]
  exact acc_read c i arg2 harg2 arg3 harg3 arg4 harg4 arg5 harg5 x0 x1 _ (read_store_whole _ _ _) _ (Nat.le_refl _)

end Cert.KernelIdeal.L1

end
-- ==== Proof.AbsDiff.lean ====
/-
  The one law of the extended reals that joins the two programs: the distance |a - b|, which both compute as
  max (a - b) (-(a - b)), is symmetric in a and b. On the reals this is -(a - b) = b - a; with an infinite
  argument both sides are +inf, because a difference of infinities of one sign is -inf and its negation +inf.
  No finiteness of the arguments is needed.
-/
import Idealize.ShloMosaic.PureOps.Ideal

noncomputable section

namespace Cert.L1

/-- The absolute difference of two extended reals, in the form both programs compute it. -/
def dist (a b : EReal) : EReal := max (a - b) (-(a - b))

/-- The absolute difference is symmetric, at every pair of extended reals. -/
theorem dist_comm (a b : EReal) : dist a b = dist b a := by
  unfold dist
  induction a using EReal.rec <;> induction b using EReal.rec
  all_goals first
    | (rw [← EReal.coe_sub, ← EReal.coe_sub, ← EReal.coe_neg, ← EReal.coe_neg, neg_sub, neg_sub, max_comm])
    | simp

end Cert.L1

end
-- ==== Proof.Spec.lean ====
/-
  The result of both programs as one function of the two argument arrays q, k : [2, 512, 8, 64]:

      out[b, i, j, h] = (0 + Σ_{w < 64} |k[b, i, h, w] - q[b, j, h, w]|) · (-1/8)

  and the three intermediate readings of it that the kernel's side goes through:
    * the accumulator after the first n steps of the sum, at an index (h, i', j) of one block,
      0 + Σ_{w < n} |kblk[0, h, w, i'] - qblk[0, h, w, j]|, with its step law;
    * the block one grid point writes, the full sum scaled;
    * the whole array the blocks tile, over the transposed operands qt, kt : [2, 8, 64, 512]
      (qt[b, h, w, j] = q[b, j, h, w]), laid out [b, h, i, j].
  The zero the sum starts from and the scale are kept as the two float words both programs spell.
-/
import Idealize.ShloMosaic.PureOps.Ideal
import Idealize.ShloMosaic.Lib.ValueIdx
import proofs.«126552_j79611513798903_2_alg».proof.Proof.AbsDiff

noncomputable section

namespace Cert.L1

open Idealize.ShloMosaic Idealize.ShloMosaic.ValueIdx

/-- The result, index by index, of the argument arrays. -/
def G (q k : (⟨4, ![2, 512, 8, 64]⟩ : Shape).Idx → EReal) : (⟨4, ![2, 512, 512, 8]⟩ : Shape).Idx → EReal := fun y =>
  (Ideal.ofBits .f32 0x00000000#32 + ∑ w : Fin 64, dist (k (ix4 (y 0) (y 1) (y 3) w)) (q (ix4 (y 0) (y 2) (y 3) w)))
    * Ideal.ofBits .f32 0xBE000000#32

/-- The same array before the last transposition, over the transposed operands: index (b, h, i, j). -/
def Gt (qt kt : (⟨4, ![2, 8, 64, 512]⟩ : Shape).Idx → EReal) : (⟨4, ![2, 8, 512, 512]⟩ : Shape).Idx → EReal := fun y =>
  (Ideal.ofBits .f32 0x00000000#32 + ∑ w : Fin 64, dist (kt (ix4 (y 0) (y 1) w (y 2))) (qt (ix4 (y 0) (y 1) w (y 3))))
    * Ideal.ofBits .f32 0xBE000000#32

section Block

variable (x0 : (⟨4, ![1, 8, 64, 512]⟩ : Shape).Idx → EReal) (x1 : (⟨4, ![1, 8, 64, 128]⟩ : Shape).Idx → EReal)

/-- Step w of the sum at accumulator index (h, i', j): |kblk[0, h, w, i'] - qblk[0, h, w, j]|; zero from step 64 on. -/
def term (w : ℕ) (y : (⟨3, ![8, 128, 512]⟩ : Shape).Idx) : EReal :=
  if h : w < 64 then dist (x1 (ix4 0 (y 0) ⟨w, h⟩ (y 1))) (x0 (ix4 0 (y 0) ⟨w, h⟩ (y 2))) else 0

/-- The accumulator after the first n steps. -/
def acc (n : ℕ) : (⟨3, ![8, 128, 512]⟩ : Shape).Idx → EReal := fun y =>
  Ideal.ofBits .f32 0x00000000#32 + ∑ w ∈ Finset.range n, term x0 x1 w y

/-- Before the first step the accumulator is the zero it was filled with. -/
theorem acc_zero : acc x0 x1 0 = fun _ => Ideal.ofBits .f32 0x00000000#32 := by
  funext y; unfold acc; rw [Finset.sum_range_zero, add_zero]

/-- One step adds that step's distance. -/
theorem acc_succ (n : ℕ) (hn : n < 64) (y : (⟨3, ![8, 128, 512]⟩ : Shape).Idx) :
    acc x0 x1 (n + 1) y = acc x0 x1 n y + dist (x1 (ix4 0 (y 0) ⟨n, hn⟩ (y 1))) (x0 (ix4 0 (y 0) ⟨n, hn⟩ (y 2))) := by
  unfold acc; rw [Finset.sum_range_succ, ← add_assoc]; unfold term; rw [dif_pos hn]

/-- After all 64 steps the accumulator is the full sum. -/
theorem acc_full (y : (⟨3, ![8, 128, 512]⟩ : Shape).Idx) :
    acc x0 x1 64 y = Ideal.ofBits .f32 0x00000000#32 + ∑ w : Fin 64, dist (x1 (ix4 0 (y 0) w (y 1))) (x0 (ix4 0 (y 0) w (y 2))) := by
  unfold acc; rw [Finset.sum_range]
  refine congrArg (_ + ·) (Finset.sum_congr rfl fun w _ => ?_)
  unfold term; rw [dif_pos w.isLt]

/-- The block one grid point writes, at block index (0, h, i', j). -/
def blockFn : (⟨4, ![1, 8, 128, 512]⟩ : Shape).Idx → EReal := fun y =>
  (Ideal.ofBits .f32 0x00000000#32 + ∑ w : Fin 64, dist (x1 (ix4 0 (y 1) w (y 2))) (x0 (ix4 0 (y 1) w (y 3))))
    * Ideal.ofBits .f32 0xBE000000#32

end Block

end Cert.L1

end
-- ==== Proof.Body.lean ====
/-
  The body's arithmetic on the extended reals, index by index.
    * The zero fill is the constant zero word.
    * One trip's update, at accumulator index (h, i', j): the old value plus |krow[0, h, 0, i'] - qrow[0, h, 0, j]|.
      The k row [1, 8, 1, 128] is recast to [8, 128, 1] and spread along the last axis, the q row [1, 8, 1, 512] is
      recast to [8, 1, 512] and spread along the middle axis; a recast keeps the row-major position, a spread
      reads its operand at coordinate 0 on the axis it widens.
    * The scaling, at block index (0, h, i', j): the accumulator at (h, i', j) times the scale word.
  With the rows being the w-th rows of the two blocks, the composed accumulator after n trips is the partial sum of
  the specification, and the output block is the specification's block.
-/
import proofs.«126552_j79611513798903_2_alg».proof.Proof.Trip
import proofs.«126552_j79611513798903_2_alg».proof.Proof.Spec
import Idealize.ShloMosaic.Lib.ValueIdx
import Idealize.ShloMosaic.Lib.Pipeline.Value

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-- The loop makes 64 trips. -/
theorem trips_eq : k0_t1_loop.trips = 64 := by decide

/-- The zero fill. -/
theorem pay1_eq : k0_pay1 (F := Ideal) = fun _ => Ideal.ofBits .f32 0x00000000#32 := by
  unfold k0_pay1
  exact shapeCast_self (broadcast S8x128x512 (Scalar.ofBits (F := Ideal) .f32 0x00000000#32)) shapeCasts_S8x128x512_S8x128x512

section Rows
variable {α : Type}

/-- The k row recast [1,8,1,128] → [8,1,128] → [8,128] → [8,128,1] and spread to [8,128,512], at (h, i', j): the row at (0, h, 0, i'). -/
theorem kcol_apply (v12 : S1x8x1x128.Idx → α) (h : Fin 8) (ii : Fin 128) (j : Fin 512) :
    broadcastTo S8x128x512 (shapeCast S8x128x1 (shapeCast S8x128 (shapeCast S8x1x128 v12 shapeCasts_S1x8x1x128_S8x1x128)
      shapeCasts_S8x1x128_S8x128) shapeCasts_S8x128_S8x128x1) broadcasts_S8x128x1_S8x128x512 (ix3 h ii j) = v12 (ix4 0 h 0 ii) := by
  refine (broadcastTo_apply _ _ (ix3 h ii j) (ix3 h ii 0) (fun a => by
    match a with
    | ⟨0, _⟩ => show h.val = if (8 : Nat) = 1 then 0 else h.val; rw [if_neg (by decide)]
    | ⟨1, _⟩ => show ii.val = if (128 : Nat) = 1 then 0 else ii.val; rw [if_neg (by decide)]
    | ⟨2, _⟩ => show 0 = if (1 : Nat) = 1 then 0 else j.val; rw [if_pos rfl])).trans ?_
  refine (shapeCast_apply _ _ (ix3 h ii 0) (ix2 h ii) (by
    rw [Shape.rowMajor_val_two, Shape.rowMajor_val_three]
    show h.val * 128 + ii.val = (h.val * 128 + ii.val) * 1 + 0; omega)).trans ?_
  refine (shapeCast_apply _ _ (ix2 h ii) (ix3 h 0 ii) (by
    rw [Shape.rowMajor_val_two, Shape.rowMajor_val_three]
    show (h.val * 1 + 0) * 128 + ii.val = h.val * 128 + ii.val; omega)).trans ?_
  exact shapeCast_apply _ _ (ix3 h 0 ii) (ix4 0 h 0 ii) (by
    rw [Shape.rowMajor_val_three, Shape.rowMajor_val_four]
    show ((0 * 8 + h.val) * 1 + 0) * 128 + ii.val = (h.val * 1 + 0) * 128 + ii.val; omega)

/-- The q row recast [1,8,1,512] → [8,1,512] → [8,512] → [8,1,512] and spread to [8,128,512], at (h, i', j): the row at (0, h, 0, j). -/
theorem qrow_apply (v16 : S1x8x1x512.Idx → α) (h : Fin 8) (ii : Fin 128) (j : Fin 512) :
    broadcastTo S8x128x512 (shapeCast S8x1x512 (shapeCast S8x512 (shapeCast S8x1x512 v16 shapeCasts_S1x8x1x512_S8x1x512)
      shapeCasts_S8x1x512_S8x512) shapeCasts_S8x512_S8x1x512) broadcasts_S8x1x512_S8x128x512 (ix3 h ii j) = v16 (ix4 0 h 0 j) := by
  refine (broadcastTo_apply _ _ (ix3 h ii j) (ix3 h 0 j) (fun a => by
    match a with
    | ⟨0, _⟩ => show h.val = if (8 : Nat) = 1 then 0 else h.val; rw [if_neg (by decide)]
    | ⟨1, _⟩ => show 0 = if (1 : Nat) = 1 then 0 else ii.val; rw [if_pos rfl]
    | ⟨2, _⟩ => show j.val = if (512 : Nat) = 1 then 0 else j.val; rw [if_neg (by decide)])).trans ?_
  refine (shapeCast_apply _ _ (ix3 h 0 j) (ix2 h j) (by
    rw [Shape.rowMajor_val_two, Shape.rowMajor_val_three]
    show h.val * 512 + j.val = (h.val * 1 + 0) * 512 + j.val; omega)).trans ?_
  refine (shapeCast_apply _ _ (ix2 h j) (ix3 h 0 j) (by
    rw [Shape.rowMajor_val_two, Shape.rowMajor_val_three]
    show (h.val * 1 + 0) * 512 + j.val = h.val * 512 + j.val; omega)).trans ?_
  exact shapeCast_apply _ _ (ix3 h 0 j) (ix4 0 h 0 j) (by
    rw [Shape.rowMajor_val_three, Shape.rowMajor_val_four]
    show ((0 * 8 + h.val) * 1 + 0) * 512 + j.val = (h.val * 1 + 0) * 512 + j.val; omega)

end Rows

/-- One trip's update at accumulator index (h, i', j). -/
theorem pay2_apply (v12 : Vec Ideal S1x8x1x128 .f32) (v16 : Vec Ideal S1x8x1x512 .f32) (v19 : Vec Ideal S8x128x512 .f32)
    (h : Fin 8) (ii : Fin 128) (j : Fin 512) :
    k0_pay2 v12 v16 v19 (ix3 h ii j) = v19 (ix3 h ii j) + Cert.L1.dist (v12 (ix4 0 h 0 ii)) (v16 (ix4 0 h 0 j)) := by
  unfold k0_pay2
  refine (congrFun (shapeCast_self _ shapeCasts_S8x128x512_S8x128x512) (ix3 h ii j)).trans ?_
  exact congrArg₂ (fun a b => v19 (ix3 h ii j) + Cert.L1.dist a b) (kcol_apply v12 h ii j) (qrow_apply v16 h ii j)

/-- The scaling at block index y = (0, h, i', j). -/
theorem pay3_apply (v5 : Vec Ideal S8x128x512 .f32) (y : S1x8x128x512.Idx) :
    k0_pay3 v5 y = v5 (ix3 (y 1) (y 2) (y 3)) * Ideal.ofBits .f32 0xBE000000#32 := by
  unfold k0_pay3
  have h0 : (y 0).val = 0 := by have : (y 0).val < 1 := (y 0).isLt; omega
  refine (shapeCast_apply _ shapeCasts_S8x128x512_S1x8x128x512 y (ix3 (y 1) (y 2) (y 3)) (by
    rw [Shape.rowMajor_val_three, Shape.rowMajor_val_four]
    show ((y 1).val * 128 + (y 2).val) * 512 + (y 3).val = (((y 0).val * 8 + (y 1).val) * 128 + (y 2).val) * 512 + (y 3).val
    rw [h0]; omega)).trans ?_
  rfl

/-- Row w of the k block, read through the trip's rectangle at (0, h, 0, i'), is the block at (0, h, w, i'). -/
theorem krow_eq (x1 : Vec Ideal S1x8x64x128 .f32) (n : ℕ) (hlt : n < k0_t1_loop.trips) (h64 : n < 64) (h : Fin 8) (ii : Fin 128) :
    View.ld x1 (Rect.unit (s := S1x8x64x128) (k0_off1 ⟨n, hlt⟩) S1x8x1x128.size (k0_off1_inb ⟨n, hlt⟩)) (ix4 0 h 0 ii)
      = x1 (ix4 0 h ⟨n, h64⟩ ii) := by
  have e := k0_off1_eq ⟨n, hlt⟩
  refine congrArg x1 (funext fun a => Fin.ext ?_)
  match a with
  | ⟨0, _⟩ => show k0_off1 ⟨n, hlt⟩ 0 + 1 * 0 = 0; rw [e]; rfl
  | ⟨1, _⟩ => show k0_off1 ⟨n, hlt⟩ 1 + 1 * h.val = h.val; rw [e]; show 0 + 1 * h.val = h.val; omega
  | ⟨2, _⟩ => show k0_off1 ⟨n, hlt⟩ 2 + 1 * 0 = n; rw [e]; rfl
  | ⟨3, _⟩ => show k0_off1 ⟨n, hlt⟩ 3 + 1 * ii.val = ii.val; rw [e]; show 0 + 1 * ii.val = ii.val; omega

/-- Row w of the q block, read through the trip's rectangle at (0, h, 0, j), is the block at (0, h, w, j). -/
theorem qrow_eq (x0 : Vec Ideal S1x8x64x512 .f32) (n : ℕ) (hlt : n < k0_t1_loop.trips) (h64 : n < 64) (h : Fin 8) (j : Fin 512) :
    View.ld x0 (Rect.unit (s := S1x8x64x512) (k0_off2 ⟨n, hlt⟩) S1x8x1x512.size (k0_off2_inb ⟨n, hlt⟩)) (ix4 0 h 0 j)
      = x0 (ix4 0 h ⟨n, h64⟩ j) := by
  have e := k0_off2_eq ⟨n, hlt⟩
  refine congrArg x0 (funext fun a => Fin.ext ?_)
  match a with
  | ⟨0, _⟩ => show k0_off2 ⟨n, hlt⟩ 0 + 1 * 0 = 0; rw [e]; rfl
  | ⟨1, _⟩ => show k0_off2 ⟨n, hlt⟩ 1 + 1 * h.val = h.val; rw [e]; show 0 + 1 * h.val = h.val; omega
  | ⟨2, _⟩ => show k0_off2 ⟨n, hlt⟩ 2 + 1 * 0 = n; rw [e]; rfl
  | ⟨3, _⟩ => show k0_off2 ⟨n, hlt⟩ 3 + 1 * j.val = j.val; rw [e]; show 0 + 1 * j.val = j.val; omega

/-- The composed accumulator after n ≤ 64 trips is the partial sum. -/
theorem accAfter_eq (x0 : Vec Ideal S1x8x64x512 .f32) (x1 : Vec Ideal S1x8x64x128 .f32) :
    ∀ n, n ≤ 64 → accAfter x0 x1 n = Cert.L1.acc x0 x1 n
  | 0, _ => by rw [accAfter, pay1_eq, Cert.L1.acc_zero]
  | n + 1, hn => by
    have h64 : n < 64 := hn
    have hlt : n < k0_t1_loop.trips := by rw [trips_eq]; exact h64
    rw [accAfter, dif_pos hlt, accAfter_eq x0 x1 n (Nat.le_of_lt h64)]
    funext y
    obtain ⟨h, ii, j, rfl⟩ : ∃ (h : Fin 8) (ii : Fin 128) (j : Fin 512), y = ix3 h ii j := ⟨y 0, y 1, y 2, eq_ix3 y⟩
    rw [pay2_apply, krow_eq x1 n hlt h64, qrow_eq x0 n hlt h64, Cert.L1.acc_succ x0 x1 n h64]

/-- What a grid point leaves in its output block is the specification's block of the two input blocks. -/
theorem out_block (c : Dev nD) (i : grid0.Coords) (arg2 : Memref sig .tc .vmem S1x8x64x512 .f32) (harg2 : arg2.IsWhole) (arg3 : Memref sig .tc .vmem S1x8x64x128 .f32) (harg3 : arg3.IsWhole) (arg4 : Memref sig .tc .vmem S1x8x128x512 .f32) (harg4 : arg4.IsWhole) (arg5 : Memref sig .tc .vmem S8x128x512 .f32) (harg5 : arg5.IsWhole) (x0 : Vec Ideal S1x8x64x512 .f32) (x1 : Vec Ideal S1x8x64x128 .f32) :
    out0_A_2 (F := Ideal) c i arg2 harg2 arg3 harg3 arg4 harg4 arg5 harg5 x0 x1 = Cert.L1.blockFn x0 x1 := by
  rw [out_eq, trips_eq, accAfter_eq x0 x1 64 (Nat.le_refl _)]
  funext y
  rw [pay3_apply, Cert.L1.acc_full]
  rfl

end Cert.KernelIdeal.L1

end
-- ==== Proof.Layout.lean ====
/-
  Two facts about how the specification sits in the arrays.
    * Restriction. If a q block and a k block are the parts of the transposed operands qt, kt at batch b (all of
      the q operand's last axis; columns it·128 … it·128 + 127 of the k operand's), then the block computed from
      them, at block index (0, h, i', j), is the whole-array function Gt at (b, h, it·128 + i', j).
    * Transposition. The operands are transposed [b, n, h, w] → [b, h, w, n] before, and the result
      [b, h, i, j] → [b, i, j, h] after; carried through both, Gt of the transposed operands is G of the operands.
-/
import proofs.«126552_j79611513798903_2_alg».proof.Proof.Spec
import Idealize.ShloMosaic.Lib.ValueIdx
import Idealize.ShloMosaic.Lib.Pipeline.Value

noncomputable section

namespace Cert.L1

open Idealize.ShloMosaic Idealize.ShloMosaic.ValueIdx

/-- A block of restricted operands is the restriction of the whole-array function. -/
theorem blockFn_eq_Gt (qt kt : (⟨4, ![2, 8, 64, 512]⟩ : Shape).Idx → EReal)
    (x0 : (⟨4, ![1, 8, 64, 512]⟩ : Shape).Idx → EReal) (x1 : (⟨4, ![1, 8, 64, 128]⟩ : Shape).Idx → EReal)
    (b : Fin 2) (it : Fin 4)
    (hx0 : ∀ (h : Fin 8) (w : Fin 64) (j : Fin 512), x0 (ix4 0 h w j) = qt (ix4 b h w j))
    (hx1 : ∀ (h : Fin 8) (w : Fin 64) (ii : Fin 128),
      x1 (ix4 0 h w ii) = kt (ix4 b h w ⟨it.val * 128 + ii.val, by have := it.isLt; have := ii.isLt; omega⟩))
    (y : (⟨4, ![1, 8, 128, 512]⟩ : Shape).Idx) (e : (⟨4, ![2, 8, 512, 512]⟩ : Shape).Idx)
    (he0 : (e 0).val = b.val) (he1 : (e 1).val = (y 1).val) (he2 : (e 2).val = it.val * 128 + (y 2).val)
    (he3 : (e 3).val = (y 3).val) :
    blockFn x0 x1 y = Gt qt kt e := by
  unfold blockFn Gt
  refine congrArg (· * _) (congrArg (_ + ·) (Finset.sum_congr rfl fun w _ => ?_))
  refine (congrArg₂ dist (hx1 (y 1) w (y 2)) (hx0 (y 1) w (y 3))).trans ?_
  refine congrArg₂ dist (congrArg kt (funext fun a => Fin.ext ?_)) (congrArg qt (funext fun a => Fin.ext ?_))
  · match a with
    | ⟨0, _⟩ => exact he0.symm
    | ⟨1, _⟩ => exact he1.symm
    | ⟨2, _⟩ => rfl
    | ⟨3, _⟩ => exact he2.symm
  · match a with
    | ⟨0, _⟩ => exact he0.symm
    | ⟨1, _⟩ => exact he1.symm
    | ⟨2, _⟩ => rfl
    | ⟨3, _⟩ => exact he3.symm

/-- The transposed operand at (b, h, w, n) is the operand at (b, n, h, w). -/
theorem transpose_in_apply (x : (⟨4, ![2, 512, 8, 64]⟩ : Shape).Idx → EReal)
    (hin : (⟨4, ![2, 512, 8, 64]⟩ : Shape).Transposes [0, 2, 3, 1] ⟨4, ![2, 8, 64, 512]⟩)
    (b : Fin 2) (h : Fin 8) (w : Fin 64) (n : Fin 512) :
    transpose ⟨4, ![2, 8, 64, 512]⟩ [0, 2, 3, 1] x hin (ix4 b h w n) = x (ix4 b n h w) :=
  transpose_apply _ x hin (ix4 b h w n) (ix4 b n h w) (fun a => by
    match a with | ⟨0, _⟩ => rfl | ⟨1, _⟩ => rfl | ⟨2, _⟩ => rfl | ⟨3, _⟩ => rfl)

/-- Gt of the transposed operands, transposed back, is G of the operands. -/
theorem transposed_Gt_eq_G (q k : (⟨4, ![2, 512, 8, 64]⟩ : Shape).Idx → EReal)
    (hin : (⟨4, ![2, 512, 8, 64]⟩ : Shape).Transposes [0, 2, 3, 1] ⟨4, ![2, 8, 64, 512]⟩)
    (hout : (⟨4, ![2, 8, 512, 512]⟩ : Shape).Transposes [0, 2, 3, 1] ⟨4, ![2, 512, 512, 8]⟩) :
    transpose ⟨4, ![2, 512, 512, 8]⟩ [0, 2, 3, 1]
      (Gt (transpose ⟨4, ![2, 8, 64, 512]⟩ [0, 2, 3, 1] q hin) (transpose ⟨4, ![2, 8, 64, 512]⟩ [0, 2, 3, 1] k hin)) hout
      = G q k := by
  funext y
  refine (transpose_apply _ _ hout y (ix4 (y 0) (y 3) (y 1) (y 2)) (fun a => by
    match a with | ⟨0, _⟩ => rfl | ⟨1, _⟩ => rfl | ⟨2, _⟩ => rfl | ⟨3, _⟩ => rfl)).trans ?_
  unfold Gt G
  refine congrArg (· * _) (congrArg (_ + ·) (Finset.sum_congr rfl fun w _ => ?_))
  exact congrArg₂ dist (transpose_in_apply k hin (y 0) (y 3) w (y 1)) (transpose_in_apply q hin (y 0) (y 3) w (y 2))

end Cert.L1

end
-- ==== Proof.Blocks.lean ====
/-
  From the blocks to the array the kernel leaves. The grid has 2 × 4 points (b, it). At a point the q window is
  batch b of the transposed q operand, whole; the k window is batch b, columns it·128 … it·128 + 127 of the
  transposed k operand; the output window is batch b, rows it·128 … it·128 + 127 of the [2, 8, 512, 512] result.
  A block's element sits at (block index) × (block size) + (coordinate in the block) on every axis, so the block
  a point writes is the restriction to its window of the whole-array function Gt of the two transposed operands;
  and the eight output windows tile the array (the window holding row r of batch b is the one at (b, r / 128)),
  so the array ends holding Gt.
-/
import proofs.«126552_j79611513798903_2_alg».proof.Proof.Body
import proofs.«126552_j79611513798903_2_alg».proof.Proof.Layout

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt Ideal) ℓ)

/-- How the three windows' block indices relate, at every grid point. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = win0_2.index t (2 : Fin 4)
    ∧ win0_2.index t (1 : Fin 4) = 0 ∧ win0_2.index t (3 : Fin 4) = 0
    ∧ win0_2.index t (0 : Fin 4) ≤ 1 ∧ win0_2.index t (2 : Fin 4) ≤ 3 :=
  (by decide +kernel : ∀ t : Fin grid0.N, _)

/-- Every (batch, row tile) is some grid point's output window. -/
theorem idx_onto : ∀ (q0 : Fin 2) (q2 : Fin 4), ∃ t : Fin cfg0.N, win0_2.index t = ![q0.val, 0, q2.val, 0] :=
  (by decide +kernel : ∀ (q0 : Fin 2) (q2 : Fin 4), ∃ t : Fin grid0.N, win0_2.index t = ![q0.val, 0, q2.val, 0])

/-- What point t writes back is its window's part of Gt of the transposed operands. -/
theorem flushed_eq (c : Dev nD) (t : Fin cfg0.N) :
    (dats m 0 c).flushed 2 t = ((cfg0.win 2).blk t).view.read (Elt Ideal) (Cert.L1.Gt (V m c main_v0) (V m c main_v1)) := by
  show (cfg0.win 2).cut (grid0.coords t) ((dats m 0 c).after 2 t) = _
  rw [after0_2]
  have hout : outsAt0 m c t = Cert.L1.blockFn (iblk m c 0 t) (iblk m c 1 t) :=
    out_block c (grid0.coords t) (ms0_0 t) (hs0_0 t) (ms0_1 t) (hs0_1 t) (ms0_2 t) (hs0_2 t) scM0_0 (Memref.isWhole_whole _)
      (iblk m c 0 t) (iblk m c 1 t)
  rw [hout]
  obtain ⟨a0, a1, a2, a3, b0, b1, b2, b3, c1, c3, hb, hi⟩ := idx_facts t
  funext y
  show Cert.L1.blockFn (iblk m c 0 t) (iblk m c 1 t) y
    = Cert.L1.Gt (V m c main_v0) (V m c main_v1) (((cfg0.win 2).blk t).view.emb y)
  refine Cert.L1.blockFn_eq_Gt (V m c main_v0) (V m c main_v1) (iblk m c 0 t) (iblk m c 1 t)
    ⟨win0_2.index t (0 : Fin 4), by omega⟩ ⟨win0_2.index t (2 : Fin 4), by omega⟩ ?_ ?_ y
    (((cfg0.win 2).blk t).view.emb y) ?_ ?_ ?_ ?_
  · intro h w j
    show V m c main_v0 (((cfg0.win 0).blk t).view.emb (ix4 0 h w j)) = V m c main_v0 _
    refine congrArg _ (funext fun a => Fin.ext ?_)
    match a with
    | ⟨0, _⟩ => show win0_0.index t (0 : Fin 4) * 1 + 1 * 0 = win0_2.index t (0 : Fin 4); omega
    | ⟨1, _⟩ => show win0_0.index t (1 : Fin 4) * 8 + 1 * h.val = h.val; omega
    | ⟨2, _⟩ => show win0_0.index t (2 : Fin 4) * 64 + 1 * w.val = w.val; omega
    | ⟨3, _⟩ => show win0_0.index t (3 : Fin 4) * 512 + 1 * j.val = j.val; omega
  · intro h w ii
    show V m c main_v1 (((cfg0.win 1).blk t).view.emb (ix4 0 h w ii)) = V m c main_v1 _
    refine congrArg _ (funext fun a => Fin.ext ?_)
    match a with
    | ⟨0, _⟩ => show win0_1.index t (0 : Fin 4) * 1 + 1 * 0 = win0_2.index t (0 : Fin 4); omega
    | ⟨1, _⟩ => show win0_1.index t (1 : Fin 4) * 8 + 1 * h.val = h.val; omega
    | ⟨2, _⟩ => show win0_1.index t (2 : Fin 4) * 64 + 1 * w.val = w.val; omega
    | ⟨3, _⟩ => show win0_1.index t (3 : Fin 4) * 128 + 1 * ii.val = win0_2.index t (2 : Fin 4) * 128 + ii.val; omega
  · have hy : (y 0).val < 1 := (y 0).isLt
    show win0_2.index t (0 : Fin 4) * 1 + 1 * (y 0).val = win0_2.index t (0 : Fin 4); omega
  · show win0_2.index t (1 : Fin 4) * 8 + 1 * (y 1).val = (y 1).val; omega
  · show win0_2.index t (2 : Fin 4) * 128 + 1 * (y 2).val = win0_2.index t (2 : Fin 4) * 128 + (y 2).val; omega
  · show win0_2.index t (3 : Fin 4) * 512 + 1 * (y 3).val = (y 3).val; omega

/-- An index of the result array is in point t's output window iff each coordinate is in the window's range. -/
theorem mem_blk (t : Fin cfg0.N) (i : S2x8x512x512.Idx) :
    i ∈ ((cfg0.win 2).blk t).view.set ↔ ∀ a : Fin 4, win0_2.index t a * S1x8x128x512.size a ≤ (i a).val
      ∧ (i a).val < win0_2.index t a * S1x8x128x512.size a + S1x8x128x512.size a := by
  show i ∈ ((View.whole main_v2).slice (win0_2.rect t)).set ↔ _
  rw [View.set_slice_whole, Rect.mem_set_unit]
  exact Iff.rfl

/-- The output windows tile the result array. -/
theorem cover (i : S2x8x512x512.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 512 := (i 2).isLt
  have hi3 : (i 3).val < 512 := (i 3).isLt
  obtain ⟨t, ht⟩ := idx_onto ⟨(i 0).val, hi0⟩ ⟨(i 2).val / 128, by omega⟩
  have q0 : win0_2.index t (0 : Fin 4) = (i 0).val := congrFun ht 0
  have q1 : win0_2.index t (1 : Fin 4) = 0 := congrFun ht 1
  have q2 : win0_2.index t (2 : Fin 4) = (i 2).val / 128 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 128 ≤ (i 2).val ∧ (i 2).val < win0_2.index t (2 : Fin 4) * 128 + 128; omega
  | ⟨3, _⟩ => show win0_2.index t (3 : Fin 4) * 512 ≤ (i 3).val ∧ (i 3).val < win0_2.index t (3 : Fin 4) * 512 + 512; omega

/-- The result array after the region: Gt of the transposed operands as the region finds them. -/
theorem final (c : Dev nD) : (dats m 0 c).arrAt 2 cfg0.N = Cert.L1.Gt (V m c main_v0) (V m c main_v1) :=
  (dats m 0 c).arrAt_eq_of_cover 2 (Cert.L1.Gt (V m c main_v0) (V m c main_v1)) (fun t _ => flushed_eq m c t) cover

end Cert.KernelIdeal.L1

end
-- ==== Proof.Host.lean ====
/-
  The whole idealized kernel program: its result of its arguments. Before the region the two operands are
  transposed [b, n, h, w] → [b, h, w, n]; the region leaves Gt of the transposed operands in its result array;
  after the region that array is transposed [b, h, i, j] → [b, i, j, h]. Carried through the transpositions, Gt of
  the transposed operands is G of the operands: every weakly fair execution ends with the result at G of the two
  arguments as launched, and the arguments unchanged.
-/
import proofs.«126552_j79611513798903_2_alg».proof.Proof.Blocks
import Idealize.ShloMosaic.Lib.StableHlo.Run

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ) (ρ : Dev nD → PrngReg)

/-- The region finds the first operand transposed. -/
theorem V_main_v0 (c : Dev nD) :
    (V m c main_v0 : S2x8x64x512.Idx → EReal)
      = transpose S2x8x64x512 [0, 2, 3, 1] (m ((c : Thread nD τ).loc main_arg0)) transposes_S2x512x8x64_S2x8x64x512_0_2_3_1 := by
  show StableHlo.after hostOps0 (fun b => m (c, b)) (Proc.devRef .tc main_v0) = _
  after_results

/-- And the second. -/
theorem V_main_v1 (c : Dev nD) :
    (V m c main_v1 : S2x8x64x512.Idx → EReal)
      = transpose S2x8x64x512 [0, 2, 3, 1] (m ((c : Thread nD τ).loc main_arg1)) transposes_S2x512x8x64_S2x8x64x512_0_2_3_1 := by
  show StableHlo.after hostOps0 (fun b => m (c, b)) (Proc.devRef .tc main_v1) = _
  after_results

/-- The program's result after the last transposition is G of the arguments as launched. -/
theorem result_eq (c : Dev nD) :
    Pipeline.afterTail₀ cfgs (dats m) 0 (V0 m) [hostOps1] c main_v3
      = Cert.L1.G (m ((c : Thread nD τ).loc main_arg0)) (m ((c : Thread nD τ).loc main_arg1)) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v2)
      = Cert.L1.Gt (V m c main_v0) (V m c main_v1) :=
    (Pipeline.withArrays_arr spec0 launch0.win.arr_inj c _ _ 2).trans (final m c)
  refine (congrArg (fun x => transpose S2x512x512x8 [0, 2, 3, 1] x transposes_S2x8x512x512_S2x512x512x8_0_2_3_1) hA).trans ?_
  refine (congrArg₂ (fun a b => transpose S2x512x512x8 [0, 2, 3, 1] (Cert.L1.Gt a b) transposes_S2x8x512x512_S2x512x512x8_0_2_3_1)
    (V_main_v0 m c) (V_main_v1 m c)).trans ?_
  exact Cert.L1.transposed_Gt_eq_G _ _ _ _

/-- Every weakly fair execution of the idealized kernel program ends with its result at G of the two arguments, and the
    arguments as launched. -/
theorem run : θ_run defs (onTc (τ := τ) (main (F := Ideal))) ⟨m, fun _ => 0, ρ⟩ (fun r => ∀ c : Dev nD,
      r.2.mem ((c.tc : Thread nD τ).loc main_v3)
        = Cert.L1.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.L1

end
-- ==== Proof.RefValue.lean ====
/-
  The reference's result is the specification G of its two arguments. Read index by index: the two broadcasts
  put q[b, j, h, w] and k[b, i, h, w] at position (b, i, j, h, w); the subtraction and absolute value make
  |q[b, j, h, w] - k[b, i, h, w]|; the reduction over the last axis is the initial zero plus the sum over w; the
  product with the broadcast scalar scales it. G has the distance with its arguments in the other order, which is
  the same number by symmetry of the distance.
-/
import proofs.«126552_j79611513798903_2_alg».proof.Proof.Gen.ReferenceIdeal.Read
import proofs.«126552_j79611513798903_2_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx

/-- Where the first argument is read for output index i and summation index w: (b, j, h, w). -/
theorem idx_q (i : S2x512x512x8.Idx) (w : Fin 64) :
    idx_main_v0 (idx_main_v2 (idx_main_v6 i w)) = ix4 (i 0) (i 2) (i 3) w :=
  funext fun a => Fin.ext (by match a with | ⟨0, _⟩ => rfl | ⟨1, _⟩ => rfl | ⟨2, _⟩ => rfl | ⟨3, _⟩ => rfl)

/-- Where the second argument is read: (b, i, h, w). -/
theorem idx_k (i : S2x512x512x8.Idx) (w : Fin 64) :
    idx_main_v1 (idx_main_v3 (idx_main_v6 i w)) = ix4 (i 0) (i 1) (i 3) w :=
  funext fun a => Fin.ext (by match a with | ⟨0, _⟩ => rfl | ⟨1, _⟩ => rfl | ⟨2, _⟩ => rfl | ⟨3, _⟩ => rfl)

/-- The reference's last stage is G of the arguments. -/
theorem result_eq (x0 x1 : (⟨S2x512x8x64, .f32⟩ : BufTy).Contents (Elt Ideal)) :
    val_main_v8 (F := Ideal) x0 x1 = Cert.L1.G x0 x1 := by
  funext i
  rw [val_main_v8_apply, val_main_v6_apply, val_main_v7_apply, val_main_cst_0_apply, val_main_cst_apply]
  simp only [val_main_v5_apply, val_main_v4_apply, val_main_v2_apply, val_main_v3_apply, val_main_v0_apply,
    val_main_v1_apply, idx_q, idx_k]
  unfold Cert.L1.G
  refine congrArg (· * _) (congrArg (_ + ·) (Finset.sum_congr rfl fun w _ => ?_))
  exact Cert.L1.dist_comm (x0 (ix4 (i 0) (i 2) (i 3) w)) (x1 (ix4 (i 0) (i 1) (i 3) w))

end Cert.ReferenceIdeal.RefValue

end
-- ==== Proof.lean ====
/-
  Pairwise L1 distances: for q, k : [2, 512, 8, 64] both programs compute

      out[b, i, j, h] = (0 + Σ_{w < 64} |k[b, i, h, w] - q[b, j, h, w]|) · (-1/8).

  The kernel transposes the operands to [b, h, w, n], and on a 2 × 4 grid fills, per point, a [8, 128, 512]
  accumulator with zeros, adds |k - q| one w at a time over 64 trips, scales it into a [1, 8, 128, 512] block of
  a [2, 8, 512, 512] array, and transposes that array to [b, i, j, h]. The reference broadcasts both operands to
  [b, i, j, h, w], takes |q - k|, sums over w from zero and scales. On the extended reals the two agree index by
  index: the distance is symmetric (at infinite arguments too), a running sum from zero is the zero plus the sum,
  and the zero and the scale are the same float words on both sides, so no finiteness of the inputs is used.
  The idealization rewrote nothing, so its conjunct is trivial; each frame is the program's generated run.
-/
import proofs.«126552_j79611513798903_2_alg».proof.Defs
import proofs.«126552_j79611513798903_2_alg».proof.Proof.Gen.Kernel
import proofs.«126552_j79611513798903_2_alg».proof.Proof.Gen.Kernel.Frame
import proofs.«126552_j79611513798903_2_alg».proof.Proof.Gen.KernelIdeal
import proofs.«126552_j79611513798903_2_alg».proof.Proof.Gen.KernelIdeal.Frame
import proofs.«126552_j79611513798903_2_alg».proof.Proof.Gen.ReferenceIdeal
import proofs.«126552_j79611513798903_2_alg».proof.Proof.Gen.ReferenceIdeal.Run
import proofs.«126552_j79611513798903_2_alg».proof.Proof.Gen.ReferenceIdeal.Read
import proofs.«126552_j79611513798903_2_alg».proof.Proof.Gen.Pre_finite_inputs
import proofs.«126552_j79611513798903_2_alg».proof.Proof.Host
import proofs.«126552_j79611513798903_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on q and k, both idealized programs end with the result at G of q and k. -/
theorem algebraic : Cert.algebraic_KernelIdeal_ReferenceIdeal := by
  intro m ρ m' ρ' _ hagree
  refine ⟨fun c => Cert.L1.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.L1.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
